-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : IVec S2x600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S10000x128 : Shape := ⟨2, ![10000, 128]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x64 : Shape := ⟨2, ![100000, 64]⟩
abbrev S10000x64 : Shape := ⟨2, ![10000, 64]⟩
abbrev S600000x64 : Shape := ⟨2, ![600000, 64]⟩
abbrev S1x64 : Shape := ⟨2, ![1, 64]⟩
abbrev S1200000 : Shape := ⟨1, ![1200000]⟩
abbrev S1200000x1 : Shape := ⟨2, ![1200000, 1]⟩
abbrev S1200000x64 : Shape := ⟨2, ![1200000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 152
  | .vmem => 16
  | .smem => 0
  | _ => 0

abbrev hbmTy0_0 (i : Nat) : BufTy := match i % 128 with
  | 0 => ⟨S100000x128, .f32⟩
  | 1 => ⟨S2x600000, .i32⟩
  | 2 => ⟨S2x600000, .i32⟩
  | 3 => ⟨S128x128, .f32⟩
  | 4 => ⟨S128, .f32⟩
  | 5 => ⟨S128x64, .f32⟩
  | 6 => ⟨S64, .f32⟩
  | 7 => ⟨S1x600000, .i32⟩
  | 8 => ⟨S600000, .i32⟩
  | 9 => ⟨S1x600000, .i32⟩
  | 10 => ⟨S600000, .i32⟩
  | 11 => ⟨S100000x128, .f32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S600000x1, .f32⟩
  | 51 => ⟨S600000x128, .f32⟩
  | 52 => ⟨S600000x128, .f32⟩
  | 53 => ⟨S_, .f32⟩
  | 54 => ⟨S100000x128, .f32⟩
  | 55 => ⟨S600000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x64, .f32⟩
  | 69 => ⟨S_, .f32⟩
  | 70 => ⟨S600000, .f32⟩
  | 71 => ⟨S_, .f32⟩
  | 72 => ⟨S100000, .f32⟩
  | 73 => ⟨S600000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000, .f32⟩
  | 97 => ⟨S600000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x64, .f32⟩
  | 107 => ⟨S600000x1, .f32⟩
  | 108 => ⟨S600000x64, .f32⟩
  | 109 => ⟨S600000x64, .f32⟩
  | 110 => ⟨S_, .f32⟩
  | 111 => ⟨S100000x64, .f32⟩
  | 112 => ⟨S600000x1, .i32⟩
  | 113 => ⟨S100000x64, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S1x600000, .i32⟩
  | 123 => ⟨S600000, .i32⟩
  | 124 => ⟨S1x600000, .i32⟩
  | 125 => ⟨S600000, .i32⟩
  | 126 => ⟨S1200000, .i32⟩
  | 127 => ⟨S1x600000, .i32⟩
  | _ => ⟨S100000x128, .f32⟩

abbrev hbmTy0_1 (i : Nat) : BufTy := match i % 128 with
  | 0 => ⟨S600000, .i32⟩
  | 1 => ⟨S1x600000, .i32⟩
  | 2 => ⟨S600000, .i32⟩
  | 3 => ⟨S1200000, .i32⟩
  | 4 => ⟨S_, .i32⟩
  | 5 => ⟨S1200000, .i32⟩
  | 6 => ⟨S1200000, .i1⟩
  | 7 => ⟨S_, .i32⟩
  | 8 => ⟨S1200000, .i32⟩
  | 9 => ⟨S1200000, .i32⟩
  | 10 => ⟨S1200000, .i32⟩
  | 11 => ⟨S1200000x1, .i32⟩
  | 12 => ⟨S1200000x64, .f32⟩
  | 13 => ⟨S_, .i32⟩
  | 14 => ⟨S1200000, .i32⟩
  | 15 => ⟨S1200000, .i1⟩
  | 16 => ⟨S_, .i32⟩
  | 17 => ⟨S1200000, .i32⟩
  | 18 => ⟨S1200000, .i32⟩
  | 19 => ⟨S1200000, .i32⟩
  | 20 => ⟨S1200000x1, .i32⟩
  | 21 => ⟨S1200000x64, .f32⟩
  | 22 => ⟨S1200000x1, .f32⟩
  | 23 => ⟨S1200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x1, .f32⟩
  | .local _ .vmem, ⟨15, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_18 : Ref sig .tc := ⟨.hbm, 132, rfl⟩
abbrev main_v103 : Ref sig .tc := ⟨.hbm, 133, rfl⟩
abbrev main_v104 : Ref sig .tc := ⟨.hbm, 134, rfl⟩
abbrev main_c_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_20 : Ref sig .tc := ⟨.hbm, 141, rfl⟩
abbrev main_v110 : Ref sig .tc := ⟨.hbm, 142, rfl⟩
abbrev main_v111 : Ref sig .tc := ⟨.hbm, 143, rfl⟩
abbrev main_c_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![150], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S600000_S600000_S1200000_d0 : Shape.Concatenates [S600000, S600000] S1200000 0
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S1200000x1_S1200000 : S1200000x1.ShapeCasts S1200000
  dot_S10000x128_S128x128_S10000x128_1_0_0_1_n_n_wf : DotDims.WF S10000x128 S128x128 S10000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x64_S10000x64_1_0_0_1_n_n_wf : DotDims.WF S10000x128 S128x64 S10000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  gather_S100000x64_S1200000x1_S1200000x64_1_0_n_n_0_1_164_wf : GatherDims.WF S100000x64 S1200000x1 S1200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1200000x64.size a
  hwx2_0 : ∀ i : grid2.Coords, EltTy.bits .f32 = 32 ∨ (Rect.block (s := S1200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1200000x64.size a
  hwx2_1 : ∀ i : grid2.Coords, EltTy.bits .f32 = 32 ∨ (Rect.block (s := S1200000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1200000x1.size a
  hwx2_2 : ∀ i : grid2.Coords, EltTy.bits .f32 = 32 ∨ (Rect.block (s := S1200000x1) S8000x1.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v109) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v116) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S8000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x64 : Shape := ⟨2, ![100000, 64]⟩
abbrev S600000x64 : Shape := ⟨2, ![600000, 64]⟩
abbrev S1x64 : Shape := ⟨2, ![1, 64]⟩
abbrev S2x1200000 : Shape := ⟨2, ![2, 1200000]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x600000, .i32⟩
  | 2 => ⟨S2x600000, .i32⟩
  | 3 => ⟨S128x128, .f32⟩
  | 4 => ⟨S128, .f32⟩
  | 5 => ⟨S128x64, .f32⟩
  | 6 => ⟨S64, .f32⟩
  | 7 => ⟨S1x600000, .i32⟩
  | 8 => ⟨S600000, .i32⟩
  | 9 => ⟨S1x600000, .i32⟩
  | 10 => ⟨S600000, .i32⟩
  | 11 => ⟨S100000x128, .f32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S600000x1, .f32⟩
  | 51 => ⟨S600000x128, .f32⟩
  | 52 => ⟨S600000x128, .f32⟩
  | 53 => ⟨S_, .f32⟩
  | 54 => ⟨S100000x128, .f32⟩
  | 55 => ⟨S600000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x64, .f32⟩
  | 69 => ⟨S_, .f32⟩
  | 70 => ⟨S600000, .f32⟩
  | 71 => ⟨S_, .f32⟩
  | 72 => ⟨S100000, .f32⟩
  | 73 => ⟨S600000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000, .f32⟩
  | 97 => ⟨S600000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x64, .f32⟩
  | 107 => ⟨S600000x1, .f32⟩
  | 108 => ⟨S600000x64, .f32⟩
  | 109 => ⟨S600000x64, .f32⟩
  | 110 => ⟨S_, .f32⟩
  | 111 => ⟨S100000x64, .f32⟩
  | 112 => ⟨S600000x1, .i32⟩
  | 113 => ⟨S100000x64, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S2x1200000, .i32⟩
  | 123 => ⟨S1x1200000, .i32⟩
  | 124 => ⟨S1200000, .i32⟩
  | 125 => ⟨S_, .i32⟩
  | 126 => ⟨S1200000, .i32⟩
  | 127 => ⟨S1200000, .i1⟩
  | _ => ⟨S100000x128, .f32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S1x1200000, .i32⟩
  | 7 => ⟨S1200000, .i32⟩
  | 8 => ⟨S_, .i32⟩
  | 9 => ⟨S1200000, .i32⟩
  | 10 => ⟨S1200000, .i1⟩
  | 11 => ⟨S_, .i32⟩
  | 12 => ⟨S1200000, .i32⟩
  | 13 => ⟨S1200000, .i32⟩
  | 14 => ⟨S1200000, .i32⟩
  | 15 => ⟨S1200000x1, .i32⟩
  | 16 => ⟨S1200000x64, .f32⟩
  | 17 => ⟨S1200000x64, .f32⟩
  | 18 => ⟨S_, .f32⟩
  | 19 => ⟨S1200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_18 : Ref sig .tc := ⟨.hbm, 125, rfl⟩
abbrev main_v96 : Ref sig .tc := ⟨.hbm, 126, rfl⟩
abbrev main_v97 : Ref sig .tc := ⟨.hbm, 127, rfl⟩
abbrev main_c_19 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_20 : Ref sig .tc := ⟨.hbm, 136, rfl⟩
abbrev main_v105 : Ref sig .tc := ⟨.hbm, 137, rfl⟩
abbrev main_v106 : Ref sig .tc := ⟨.hbm, 138, rfl⟩
abbrev main_c_21 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_22 : Ref sig .tc := ⟨.hbm, 146, rfl⟩
abbrev main_v113 : Ref sig .tc := ⟨.hbm, 147, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x600000_S2x600000_S2x1200000_d1 : Shape.Concatenates [S2x600000, S2x600000] S2x1200000 1
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S2x1200000_S1x1200000_1_0 : S2x1200000.Slices ![1, 0] S1x1200000
  reducesTo_S1200000x64_S1200000_d1 : S1200000x64.ReducesTo [1] S1200000
  h_S_ : 0 < S_.numel
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  gather_S100000x64_S1200000x1_S1200000x64_1_0_n_n_0_1_164_wf : GatherDims.WF S100000x64 S1200000x1 S1200000x64 [1] [0] [] [0] [] 1 ![1, 64]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf

class Facts : Prop extends Facts₀ where

variable [Facts]
-- ==== Proof.KernelRun.lean ====
/-
  The idealized kernel program's run with its RESULT buffer read: @main is three pipelined regions (the two
  dense products x·W1 and z·W2 tiled over row blocks, and the edge decode tiled over blocks of edges) among
  stretches of host operations; every weakly fair execution terminates and every unscoped buffer of a core ends
  at the fold of those segments from the launch memory. The returned buffer is one of them, so it ends at that
  fold's value there; the argument arrays end as launched.
-/
import proofs.«109692_j81381040325515_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and every unscoped buffer of
    every core then holds the value the fold of the program's segments (host stretches and pipelined regions, in
    order, from the launch memory) gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- In particular the returned buffer holds the fold's value there, and the seven argument arrays hold what they
    were launched with (no segment writes one). -/
theorem run_result : θ_run defs (onTc (τ := τ) (main (F := F))) ⟨m, fun _ => 0, ρ⟩ (fun r => ∀ c : Dev nD,
      r.2.mem ((c.tc : Thread nD τ).loc main_v118) = W8 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨h c _ (mem_uc main_v118 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_all m ρ)

end Cert.KernelIdeal.Hand

end
-- ==== Proof.EdgeDecode.lean ====
/- The edge-decode region, read as one function of its two input arrays.

   The region runs over 150 grid points. At point t each of the two [1200000,64] input arrays contributes its block of
   rows 8000·t … 8000·t + 7999, and the [1200000,1] result receives rows 8000·t … 8000·t + 7999. The body multiplies
   the two [8000,64] blocks entry by entry, sums each row over its 64 lanes from the initial value 0, and stores the
   [8000] vector of row sums as an [8000,1] column. So entry (e, 0) of the result is ∑_{k<64} a[e,k]·b[e,k].

   Contents: the body's value at an index of the block (`edge_pay_apply`, from the lane sum `edge_rowSum` and the
   keep-dimension cast `edge_keepdims`); the whole result as one function `edgeG` of the two arrays; the three index
   maps decided over the grid (`edge_idx_facts`); what point t writes back is block t of `edgeG`
   (`edge_flushed_eq`); membership in a block (`edge_mem_blk`); the blocks cover every row (`edge_cover`); hence the
   final array (`edge_final`). On the other side, the sum over the feature axis with initial value 0 read at an edge
   (`edge_hostSum`) and the reshape [1200000,1] → [1200000] read at an index (`edge_reshape`). `edgeScores` puts the
   two sides together. -/
import proofs.«109692_j81381040325515_2_alg».proof.Proof.Gen.KernelIdeal.Frame
import proofs.«109692_j81381040325515_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offsets of a whole-block access, as the constant-zero function. -/
theorem edge_hz : (![0, 0] : Fin 2 → Nat) = fun _ => 0 := funext fun a => by fin_cases a <;> rfl

/-- Row r, lane k of an [8000,64] block. -/
abbrev edgeBlkIdx (r : Nat) (hr : r < 8000) (k : Fin 64) : S8000x64.Idx := fun a => match a with
  | ⟨0, _⟩ => ⟨r, hr⟩
  | ⟨1, _⟩ => ⟨k.val, k.isLt⟩

/-- Row r of an [8000] vector. -/
abbrev edgeRowIdx (r : Nat) (hr : r < 8000) : S8000.Idx := fun a => match a with
  | ⟨0, _⟩ => ⟨r, hr⟩

/-- The sum of an [8000,64] block over its lane axis, from the initial value 0, read at row r: the sum over the 64
    lanes k of the block's entry (r, k) (the one-axis sum law; the index with the lane inserted is (r, k), coordinate by
    coordinate). -/
theorem edge_rowSum (y : FVec Ideal S8000x64 .f32) (h : S8000x64.Reduces [1] S8000) (hφ : FKind.Formats .f32)
    (hacc : (0x00000000#32 : BitVec 32) = FKind.add.neutral .f32 hφ) (r : S8000.Idx) :
    multiReduction .add [1] S8000 y 0x00000000#32 h hφ hacc r = ∑ k : Fin 64, y (edgeBlkIdx (r 0).val (r 0).isLt k) := by
  refine (Ideal.multiReduction_add_single y _ h hφ hacc r).trans ?_
  refine Finset.sum_congr rfl fun k _ => ?_
  exact congrArg y (funext fun a => Fin.ext (by match a with | ⟨0, _⟩ => rfl | ⟨1, _⟩ => rfl))

/-- An [8000] vector stored as an [8000,1] column reads, at (r, 0), the vector's entry r: the two indices have the same
    row-major position, r·1 + 0 = r. -/
theorem edge_keepdims {α : Type} (v : S8000.Idx → α) (h : S8000.ShapeCasts S8000x1) (j : S8000x1.Idx) :
    shapeCast S8000x1 v h j = v (edgeRowIdx (j 0).val (j 0).isLt) := by
  refine shapeCast_apply v h j (edgeRowIdx (j 0).val (j 0).isLt) ?_
  rw [Shape.rowMajor_val_one, Shape.rowMajor_val_two]
  have h1 : (j 1).val < 1 := (j 1).isLt
  show (j 0).val = (j 0).val * 1 + (j 1).val
  omega

/-- The body's value at entry (r, ·) of its [8000,1] block: the sum over the 64 lanes k of the products of the two
    loaded blocks' entries (r, k). The two same-shape casts are the identity, the product is entry by entry, the lane
    sum is `edge_rowSum`, the column cast is `edge_keepdims`. -/
theorem edge_pay_apply (x0 x1 : Vec Ideal S8000x64 .f32) (j : S8000x1.Idx) :
    k2_pay1 (F := Ideal) x0 x1 j
      = ∑ k : Fin 64, (x0 (edgeBlkIdx (j 0).val (j 0).isLt k) : EReal) * (x1 (edgeBlkIdx (j 0).val (j 0).isLt k) : EReal) := by
  unfold k2_pay1
  refine (edge_keepdims _ _ j).trans ?_
  refine (edge_rowSum _ _ _ _ _).trans ?_
  refine Finset.sum_congr rfl fun k _ => ?_
  rw [shapeCast_self, shapeCast_self]
  rfl

/-- Edge e, lane k of a [1200000,64] array. -/
abbrev edgeArrIdx (e : Nat) (he : e < 1200000) (k : Fin 64) : S1200000x64.Idx := fun a => match a with
  | ⟨0, _⟩ => ⟨e, he⟩
  | ⟨1, _⟩ => ⟨k.val, k.isLt⟩

/-- The whole [1200000,1] result as one function of the two [1200000,64] arrays: entry (e, ·) is the sum over the 64
    lanes of the products of the two arrays' rows e. -/
def edgeG (A B : S1200000x64.Idx → Elt Ideal .f32) : S1200000x1.Idx → Elt Ideal .f32 := fun i =>
  ∑ k : Fin 64, (A (edgeArrIdx (i 0).val (i 0).isLt k) : EReal) * (B (edgeArrIdx (i 0).val (i 0).isLt k) : EReal)

/-- The printed index maps, decided over the 150 grid points: every window's block index at point t is (t, 0). -/
theorem edge_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of edgeG of the two arrays as the region finds them: entry (r, ·) of the
    block is the lane sum of the products of rows r of the two input blocks, and row r of either input block at point t
    is row 8000·t + r of its array, as row r of the output block is row 8000·t + r of the result. -/
theorem edge_flushed_eq (c : Dev nD) (t : Fin cfg2.N) :
    (dat2 V c).flushed 2 t = ((cfg2.win 2).blk t).view.read (Elt Ideal) (edgeG (V c main_v109) (V c main_v116)) := by
  show (cfg2.win 2).cut (grid2.coords t) ((dat2 V c).after 2 t) = _
  rw [after2_2]
  unfold out2_2
  rw [View.canon_unit_zero edge_hz]
  simp only [View.ld_unit_zero (S := S8000x64) edge_hz]
  obtain ⟨e0, e1, e2, e3, e4, e5⟩ := edge_idx_facts t
  funext j
  show k2_pay1 (F := Ideal) (iblk2 V c 0 t) (iblk2 V c 1 t) j = edgeG (V c main_v109) (V c main_v116) (((cfg2.win 2).blk t).view.emb j)
  refine (edge_pay_apply (iblk2 V c 0 t) (iblk2 V c 1 t) j).trans ?_
  unfold edgeG
  refine Finset.sum_congr rfl fun k _ => ?_
  have h0 : ((cfg2.win 0).blk t).view.emb (edgeBlkIdx (j 0).val (j 0).isLt k)
      = edgeArrIdx ((((cfg2.win 2).blk t).view.emb j) 0).val ((((cfg2.win 2).blk t).view.emb j) 0).isLt k := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * k.val = k.val; omega
  have h1 : ((cfg2.win 1).blk t).view.emb (edgeBlkIdx (j 0).val (j 0).isLt k)
      = edgeArrIdx ((((cfg2.win 2).blk t).view.emb j) 0).val ((((cfg2.win 2).blk t).view.emb j) 0).isLt k := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 64 + 1 * k.val = k.val; omega
  refine congrArg₂ (fun (a b : EReal) => a * b) ?_ ?_
  · exact congrArg (V c main_v109) h0
  · exact congrArg (V c main_v116) h1

/-- An index of the result is in point t's block iff each coordinate is in the block's range on its axis. -/
theorem edge_mem_blk (t : Fin cfg2.N) (i : S1200000x1.Idx) :
    i ∈ ((cfg2.win 2).blk t).view.set ↔ ∀ a : Fin 2, win2_2.index t a * S8000x1.size a ≤ (i a).val ∧ (i a).val < win2_2.index t a * S8000x1.size a + S8000x1.size a := by
  show i ∈ ((View.whole main_v117).slice (win2_2.rect t)).set ↔ _
  rw [View.set_slice_whole, Rect.mem_set_unit]
  exact Iff.rfl

/-- The 150 blocks of 8000 rows tile the 1200000 rows: row e is in the block of point e / 8000. -/
theorem edge_cover (i : S1200000x1.Idx) :
    ∃ t : Fin cfg2.N, (cfg2.win 2).flush t = true ∧ i ∈ ((cfg2.win 2).blk t).view.set := by
  have hi0 : (i 0).val < 1200000 := (i 0).isLt
  have hi1 : (i 1).val < 1 := (i 1).isLt
  have hN : cfg2.N = 150 := N_2
  obtain ⟨t, ht⟩ : ∃ t : Fin cfg2.N, t.val = (i 0).val / 8000 := ⟨⟨(i 0).val / 8000, by rw [hN]; omega⟩, rfl⟩
  obtain ⟨e0, e1, e2, e3, e4, e5⟩ := edge_idx_facts t
  refine ⟨t, flush2_2 t, ?_⟩
  rw [edge_mem_blk]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 1 ≤ (i 1).val ∧ (i 1).val < win2_2.index t (1 : Fin 2) * 1 + 1; omega

/-- So the result array ends holding edgeG of the two input arrays. -/
theorem edge_final (c : Dev nD) : (dat2 V c).arrAt 2 cfg2.N = edgeG (V c main_v109) (V c main_v116) :=
  (dat2 V c).arrAt_eq_of_cover 2 (edgeG (V c main_v109) (V c main_v116)) (fun t _ => edge_flushed_eq V c t) edge_cover

/-- The host's sum over the lane axis with initial value 0, read at an edge: the sum over the 64 lanes of the operand's row. -/
theorem edge_hostSum (y : FVec Ideal Cert.ReferenceIdeal.S1200000x64 .f32) (e : Cert.ReferenceIdeal.S1200000.Idx) :
    Host.reduceAdd (F := Ideal) y (constant (F := Ideal) Cert.ReferenceIdeal.S_ .f32 0x00000000#32)
        Cert.ReferenceIdeal.Gen.reducesTo_S1200000x64_S1200000_d1 Cert.ReferenceIdeal.Gen.h_S_ e
      = ∑ k : Fin 64, y (edgeArrIdx (e 0).val (e 0).isLt k) := by
  simp only [Host.reduceAdd, Ideal.hostReduceAdd_def]
  rw [Ideal.hostReduceAdd_single Cert.ReferenceIdeal.Gen.reducesTo_S1200000x64_S1200000_d1 (by decide)]
  have hinit : constant (F := Ideal) Cert.ReferenceIdeal.S_ .f32 0x00000000#32 (Shape.Idx.first Cert.ReferenceIdeal.Gen.h_S_) = (0 : EReal) :=
    Ideal.ofBits_zero_f32
  rw [hinit, zero_add]
  refine Finset.sum_congr rfl fun k _ => ?_
  exact congrArg y (funext fun a => Fin.ext (by match a with | ⟨0, _⟩ => rfl | ⟨1, _⟩ => rfl))

/-- Row e, the one column, of a [1200000,1] array. -/
abbrev edgeColIdx (e : Nat) (he : e < 1200000) : S1200000x1.Idx := fun a => match a with
  | ⟨0, _⟩ => ⟨e, he⟩
  | ⟨1, _⟩ => ⟨0, Nat.one_pos⟩

/-- Entry e of the [1200000] reshape of a [1200000,1] array is the array's entry (e, 0): both have row-major position e. -/
theorem edge_reshape {α : Type} (v : S1200000x1.Idx → α) (h : S1200000x1.ShapeCasts Cert.ReferenceIdeal.S1200000)
    (e : Cert.ReferenceIdeal.S1200000.Idx) :
    shapeCast Cert.ReferenceIdeal.S1200000 v h e = v (edgeColIdx (e 0).val (e 0).isLt) := by
  refine shapeCast_apply v h e (edgeColIdx (e 0).val (e 0).isLt) ?_
  rw [Shape.rowMajor_val_two, Shape.rowMajor_val_one]
  show (e 0).val * 1 + 0 = (e 0).val
  omega

/-- The edge scores: the result of the decode region, reshaped to [1200000], is the reference's sum over the feature
    axis, with initial value 0, of the product of the two gathered [1200000,64] arrays — entry e of either is
    the sum over the 64 lanes k of a[e,k]·b[e,k]. -/
theorem edgeScores (c : Dev nD) :
    shapeCast Cert.ReferenceIdeal.S1200000 ((dat2 (F := Ideal) V c).arrAt 2 cfg2.N) Cert.KernelIdeal.Gen.shapeCasts_S1200000x1_S1200000
      = Host.reduceAdd (F := Ideal) (mulf (V c main_v109 : FVec Ideal Cert.ReferenceIdeal.S1200000x64 .f32) (V c main_v116 : FVec Ideal Cert.ReferenceIdeal.S1200000x64 .f32)) (constant (F := Ideal) Cert.ReferenceIdeal.S_ .f32 0x00000000#32)
          Cert.ReferenceIdeal.Gen.reducesTo_S1200000x64_S1200000_d1 Cert.ReferenceIdeal.Gen.h_S_ := by
  rw [edge_final]
  funext e
  refine (edge_reshape _ _ e).trans ?_
  refine Eq.trans ?_ (edge_hostSum _ e).symm
  rfl

end Cert.KernelIdeal.Hand

end
-- ==== Proof.DenseRows1.lean ====
/- The second dense product of the program, region by rows. The region multiplies a left operand of 100000 rows and 128
   columns by a 128 × 64 weight matrix, ten row blocks of 10000 rows one after the other. Block `t` of the result holds
   rows `10000·t … 10000·t + 9999`; its entry `(p, q)` is `∑_{k<128} xblock[p, k] · w[k, q]` at the extended reals, where
   the reshape of the block to its own shape and the casts to bf16 are the identity and the accumulator is the zero
   splat. The left operand's block at point `t` is the same rows of the left operand and the weight block is the whole
   weight matrix at every point, so that entry is entry `(10000·t + p, q)` of the whole product; the ten row blocks
   tile the 100000 rows. Hence the result array ends holding the whole product (`rowsProduct1`). -/
import proofs.«109692_j81381040325515_2_alg».proof.Proof.Gen.KernelIdeal.Frame
import proofs.«109692_j81381040325515_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The all-zero offset vector of a whole-buffer access, however it is spelt. -/
theorem hz1 : (![0, 0] : Fin 2 → Nat) = fun _ => 0 := funext fun a => by fin_cases a <;> rfl

/-! ## The body's product at an index -/

/-- Row `p` of a row block at column `k`: the left factor of entry `(p, q)`'s `k`-th term. -/
abbrev lrow1 (j : S10000x64.Idx) (k : Fin 128) : S10000x128.Idx := fun a => match a with
  | ⟨0, _⟩ => ⟨(j 0).val, (j 0).isLt⟩
  | ⟨1, _⟩ => ⟨k.val, k.isLt⟩
/-- Row `k` of the weights at column `q`: the right factor of entry `(p, q)`'s `k`-th term. -/
abbrev rcol1 (j : S10000x64.Idx) (k : Fin 128) : S128x64.Idx := fun a => match a with
  | ⟨0, _⟩ => ⟨k.val, k.isLt⟩
  | ⟨1, _⟩ => ⟨(j 1).val, (j 1).isLt⟩

theorem klhs1_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem klhs1_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem krhs1_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem krhs1_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(p, q)` of the body's product of a row block `x` with the weights `w`: the sum over the 128 contracted
    coordinates of `x[p, k] · w[k, q]` (the reshape of the block to its own shape and the casts to bf16 are the identity
    on the extended reals, and the accumulator is the zero splat). -/
theorem pay1_apply (x : Vec Ideal S10000x128 .f32) (w : Vec Ideal S128x64 .f32) (j : S10000x64.Idx) :
    k1_pay1 (F := Ideal) x w j = ∑ k : Fin 128, x (lrow1 j k) * w (rcol1 j k) := by
  have hs : ∀ h : S10000x128.ShapeCasts S10000x128, shapeCast S10000x128 x h = x := fun h => shapeCast_self x h
  unfold k1_pay1
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lrow1 j k := funext fun a => Fin.ext (by
    match a with
    | ⟨0, _⟩ => exact klhs1_0 _ _
    | ⟨1, _⟩ => exact (klhs1_1 _ _).trans hk)
  have er : dot_S10000x128_S128x64_S10000x64_1_0_0_1_n_n.rhsIdx j ((ValueIdx.contrEquiv1 dot_S10000x128_S128x64_S10000x64_1_0_0_1_n_n 128 rfl rfl).symm k) = rcol1 j k := funext fun a => Fin.ext (by
    match a with
    | ⟨0, _⟩ => exact (krhs1_0 _ _).trans hk
    | ⟨1, _⟩ => exact krhs1_1 _ _)
  show (shapeCast S10000x128 x _) (dot_S10000x128_S128x64_S10000x64_1_0_0_1_n_n.lhsIdx j _) * w (dot_S10000x128_S128x64_S10000x64_1_0_0_1_n_n.rhsIdx j _) = _
  rw [hs, el, er]

/-! ## The whole product at an index -/

/-- Entry `(r, q)` of the whole product of a left operand `x` with the weights `w`: the sum over the 128 contracted
    coordinates of `x[r, k] · w[k, q]`. -/
theorem whole1_apply (x : (⟨S100000x128, .f32⟩ : BufTy).Contents (Elt Ideal)) (w : (⟨S128x64, .f32⟩ : BufTy).Contents (Elt Ideal))
    (i : S100000x64.Idx) :
    Host.dotGeneral (F := Ideal) (φ₁ := .f32) (φ₂ := .f32) Cert.ReferenceIdeal.dot_S100000x128_S128x64_S100000x64_1_0_0_1_n_n none x w i
      = ∑ k : Fin 128, x (Cert.ReferenceIdeal.Read.lidx_main_v49 i k) * w (Cert.ReferenceIdeal.Read.ridx_main_v49 i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.Read.lidx_main_v49 i k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.Read.ridx_main_v49 i k := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## The index maps, decided over the ten points -/

/-- The row-block windows (the left operand's and the result's) sit at block `(t, 0)` at point `t`; the weight
    window sits at block `(0, 0)` at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-! ## The input windows' blocks as parts of their arrays -/

/-- The left operand's block at point `t` is rows `10000·t … 10000·t + 9999` of the left operand: its entry `y` is
    the array's entry `i` whenever `i = (10000·t + y₀, y₁)`. -/
theorem xblk1_apply (c : Dev nD) (t : Fin cfg1.N) (y : S10000x128.Idx) (i : S100000x128.Idx)
    (h0 : (i 0).val = 10000 * t.val + (y 0).val) (h1 : (i 1).val = (y 1).val) :
    (iblk1 V c 0 t : Vec Ideal S10000x128 .f32) y = (V c main_v48 : S100000x128.Idx → Elt Ideal .f32) i := by
  obtain ⟨e00, e01, -⟩ := idx_facts1 t
  unfold iblk1
  rw [View.read_apply]
  show V c main_v48 _ = V c main_v48 _
  congr 1
  funext a
  apply Fin.ext
  match a with
  | ⟨0, _⟩ => show win1_0.index t (0 : Fin 2) * 10000 + 1 * (y 0).val = (i 0).val; rw [e00, h0]; omega
  | ⟨1, _⟩ => show win1_0.index t (1 : Fin 2) * 128 + 1 * (y 1).val = (i 1).val; rw [e01, h1]; omega

/-- The weight window's block at every point is the whole weight matrix: its entry `y` is the array's entry `i`
    whenever the two have the same coordinates. -/
theorem wblk1_apply (c : Dev nD) (t : Fin cfg1.N) (y i : S128x64.Idx)
    (h0 : (i 0).val = (y 0).val) (h1 : (i 1).val = (y 1).val) :
    (iblk1 V c 1 t : Vec Ideal S128x64 .f32) y = (V c main_arg5 : S128x64.Idx → Elt Ideal .f32) i := by
  obtain ⟨-, -, e10, e11, -⟩ := idx_facts1 t
  unfold iblk1
  rw [View.read_apply]
  show V c main_arg5 _ = V c main_arg5 _
  congr 1
  funext a
  apply Fin.ext
  match a with
  | ⟨0, _⟩ => show win1_1.index t (0 : Fin 2) * 128 + 1 * (y 0).val = (i 0).val; rw [e10, h0]; omega
  | ⟨1, _⟩ => show win1_1.index t (1 : Fin 2) * 64 + 1 * (y 1).val = (i 1).val; rw [e11, h1]; omega

/-! ## What a point writes back -/

/-- Point `t` writes back block `t` of the whole product: entry `(p, q)` of the body's result is
    `∑ₖ xblock[p, k] · w[k, q]`, the block's row `p` is row `10000·t + p` of the left operand, the weight block is the
    whole weight matrix, and entry `(10000·t + p, q)` of the whole product is the same sum. -/
theorem flushed1_eq (c : Dev nD) (t : Fin cfg1.N) :
    (dat1 (F := Ideal) V c).flushed 2 t
      = ((cfg1.win 2).blk t).view.read (Elt Ideal)
          (Host.dotGeneral (F := Ideal) (φ₁ := .f32) (φ₂ := .f32) Cert.ReferenceIdeal.dot_S100000x128_S128x64_S100000x64_1_0_0_1_n_n none (V c main_v48) (V c main_arg5)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S128x64) hz1]
  obtain ⟨-, -, -, -, e20, e21⟩ := idx_facts1 t
  refine funext fun (j : S10000x64.Idx) => ?_
  show k1_pay1 (F := Ideal) (iblk1 V c 0 t) (iblk1 V c 1 t) j
    = Host.dotGeneral (F := Ideal) (φ₁ := .f32) (φ₂ := .f32) Cert.ReferenceIdeal.dot_S100000x128_S128x64_S100000x64_1_0_0_1_n_n none (V c main_v48) (V c main_arg5) (((cfg1.win 2).blk t).view.emb j)
  refine (pay1_apply (iblk1 V c 0 t) (iblk1 V c 1 t) j).trans ?_
  refine Eq.trans ?_ (whole1_apply _ _ _).symm
  refine Finset.sum_congr rfl fun k _ => ?_
  have hx := xblk1_apply V c t (lrow1 j k) (Cert.ReferenceIdeal.Read.lidx_main_v49 (((cfg1.win 2).blk t).view.emb j) k)
    (by show win1_2.index t (0 : Fin 2) * 10000 + 1 * (j 0).val = 10000 * t.val + (j 0).val; rw [e20]; omega)
    rfl
  have hw := wblk1_apply V c t (rcol1 j k) (Cert.ReferenceIdeal.Read.ridx_main_v49 (((cfg1.win 2).blk t).view.emb j) k)
    rfl
    (by show win1_2.index t (1 : Fin 2) * 64 + 1 * (j 1).val = (j 1).val; rw [e21]; omega)
  rw [hx, hw]

/-! ## The ten row blocks tile the rows -/

/-- An index of the result is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Row `r` of the result lies in the block of point `r / 10000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, e20, e21⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e20, ht]; omega
  | ⟨1, _⟩ => show win1_2.index t (1 : Fin 2) * 64 ≤ (i 1).val ∧ (i 1).val < win1_2.index t (1 : Fin 2) * 64 + 64; rw [e21]; omega

/-! ## The region's result -/

/-- After the region the result array holds the whole product of the left operand with the weights. -/
theorem rowsProduct1 (c : Dev nD) :
    (dat1 (F := Ideal) V c).arrAt 2 cfg1.N
      = Host.dotGeneral (F := Ideal) (φ₁ := .f32) (φ₂ := .f32) Cert.ReferenceIdeal.dot_S100000x128_S128x64_S100000x64_1_0_0_1_n_n none (V c main_v48) (V c main_arg5) :=
  (dat1 (F := Ideal) V c).arrAt_eq_of_cover 2 _ (fun t _ => flushed1_eq V c t) cover1

end Cert.KernelIdeal.Hand

end
-- ==== Proof.EdgeEndpoints.lean ====
/-
  The endpoint lists of all 1,200,000 scored edges. The kernel program takes row r of the positive edge list and
  row r of the negative edge list (each a [2, 600000] integer array) and lays the two rows end to end; the
  reference lays the two arrays side by side along the edge axis into a [2, 1200000] array and then takes row r.
  Entry e of either is the positive list's entry (r, e) when e < 600000 and the negative list's entry
  (r, e - 600000) otherwise: the two lists are one function of the edge number. Nothing here is a float.
-/
import proofs.«109692_j81381040325515_2_alg».proof.Proof.Gen.KernelIdeal
import proofs.«109692_j81381040325515_2_alg».proof.Proof.Gen.ReferenceIdeal.Read
import Idealize.ShloMosaic.Lib.Pipeline.Value
import Idealize.ShloMosaic.Lib.ValueIdx

noncomputable section

open Idealize.ShloMosaic

namespace Cert.KernelIdeal.Hand

open Cert.ReferenceIdeal Cert.ReferenceIdeal.Gen Cert.ReferenceIdeal.Read

variable {F : FTy → Type} [FloatOps F]

/-- Row 0 (the source endpoints): the two source rows laid end to end are row 0 of the arrays laid side by side. -/
theorem sources_all (x1 x2 : (⟨S2x600000, .i32⟩ : BufTy).Contents (Elt F))
    (h : Shape.Concatenates [Cert.KernelIdeal.S600000, Cert.KernelIdeal.S600000] Cert.KernelIdeal.S1200000 0) :
    concatenate Cert.KernelIdeal.S1200000 0 [⟨Cert.KernelIdeal.S600000, val_main_v1 (F := F) x1⟩, ⟨Cert.KernelIdeal.S600000, val_main_v1 (F := F) x2⟩] h
      = val_main_v95 (F := F) x1 x2 := by
  funext i
  have hi0 : (i 0).val < 1200000 := (i 0).isLt
  rw [val_main_v95_apply, val_main_v94_apply]
  unfold val_main_v93
  by_cases hlt : (i 0).val < 600000
  · rw [concatenate_pair_apply_left (0 : Fin Cert.KernelIdeal.S1200000.rank) _ _ h i rfl (ValueIdx.ix1 (⟨(i 0).val, hlt⟩ : Fin 600000))
        (fun b => by match b with | ⟨0, _⟩ => rfl)]
    rw [concatenate_pair_apply_left (1 : Fin S2x1200000.rank) x1 x2 concatenates_S2x600000_S2x600000_S2x1200000_d1
        (idx_main_v94 (idx_main_v95 i)) rfl
        (ValueIdx.ix2 (⟨0, by decide⟩ : Fin 2) (⟨(i 0).val, hlt⟩ : Fin 600000))
        (fun b => by
          match b with
          | ⟨0, _⟩ => rfl
          | ⟨1, _⟩ => show (i 0).val = (i 0).val % 1200000; omega)]
    rw [val_main_v1_apply, val_main_v0_apply]
    refine congrArg x1 (funext fun a => Fin.ext ?_)
    match a with
    | ⟨0, _⟩ => rfl
    | ⟨1, _⟩ => show (i 0).val % 600000 = (i 0).val; omega
  · have hge : 600000 ≤ (i 0).val := Nat.le_of_not_lt hlt
    rw [concatenate_pair_apply_right (0 : Fin Cert.KernelIdeal.S1200000.rank) _ _ h i rfl rfl (ValueIdx.ix1 (⟨(i 0).val - 600000, by omega⟩ : Fin 600000))
        (fun b hb => by match b with | ⟨0, _⟩ => exact absurd rfl hb)
        (by show (i 0).val - 600000 + 600000 = (i 0).val; omega)]
    rw [concatenate_pair_apply_right (1 : Fin S2x1200000.rank) x1 x2 concatenates_S2x600000_S2x600000_S2x1200000_d1
        (idx_main_v94 (idx_main_v95 i)) rfl rfl
        (ValueIdx.ix2 (⟨0, by decide⟩ : Fin 2) (⟨(i 0).val - 600000, by omega⟩ : Fin 600000))
        (fun b hb => by
          match b with
          | ⟨0, _⟩ => rfl
          | ⟨1, _⟩ => exact absurd rfl hb)
        (by show (i 0).val - 600000 + 600000 = (i 0).val % 1200000; omega)]
    rw [val_main_v1_apply, val_main_v0_apply]
    refine congrArg x2 (funext fun a => Fin.ext ?_)
    match a with
    | ⟨0, _⟩ => rfl
    | ⟨1, _⟩ => show ((i 0).val - 600000) % 600000 = (i 0).val - 600000; omega

/-- Row 1 (the destination endpoints): the two destination rows laid end to end are row 1 of the arrays laid side by side. -/
theorem destinations_all (x1 x2 : (⟨S2x600000, .i32⟩ : BufTy).Contents (Elt F))
    (h : Shape.Concatenates [Cert.KernelIdeal.S600000, Cert.KernelIdeal.S600000] Cert.KernelIdeal.S1200000 0) :
    concatenate Cert.KernelIdeal.S1200000 0 [⟨Cert.KernelIdeal.S600000, val_main_v3 (F := F) x1⟩, ⟨Cert.KernelIdeal.S600000, val_main_v3 (F := F) x2⟩] h
      = val_main_v104 (F := F) x1 x2 := by
  funext i
  have hi0 : (i 0).val < 1200000 := (i 0).isLt
  rw [val_main_v104_apply, val_main_v103_apply]
  unfold val_main_v93
  by_cases hlt : (i 0).val < 600000
  · rw [concatenate_pair_apply_left (0 : Fin Cert.KernelIdeal.S1200000.rank) _ _ h i rfl (ValueIdx.ix1 (⟨(i 0).val, hlt⟩ : Fin 600000))
        (fun b => by match b with | ⟨0, _⟩ => rfl)]
    rw [concatenate_pair_apply_left (1 : Fin S2x1200000.rank) x1 x2 concatenates_S2x600000_S2x600000_S2x1200000_d1
        (idx_main_v103 (idx_main_v104 i)) rfl
        (ValueIdx.ix2 (⟨1, by decide⟩ : Fin 2) (⟨(i 0).val, hlt⟩ : Fin 600000))
        (fun b => by
          match b with
          | ⟨0, _⟩ => rfl
          | ⟨1, _⟩ => show (i 0).val = (i 0).val % 1200000; omega)]
    rw [val_main_v3_apply, val_main_v2_apply]
    refine congrArg x1 (funext fun a => Fin.ext ?_)
    match a with
    | ⟨0, _⟩ => rfl
    | ⟨1, _⟩ => show (i 0).val % 600000 = (i 0).val; omega
  · have hge : 600000 ≤ (i 0).val := Nat.le_of_not_lt hlt
    rw [concatenate_pair_apply_right (0 : Fin Cert.KernelIdeal.S1200000.rank) _ _ h i rfl rfl (ValueIdx.ix1 (⟨(i 0).val - 600000, by omega⟩ : Fin 600000))
        (fun b hb => by match b with | ⟨0, _⟩ => exact absurd rfl hb)
        (by show (i 0).val - 600000 + 600000 = (i 0).val; omega)]
    rw [concatenate_pair_apply_right (1 : Fin S2x1200000.rank) x1 x2 concatenates_S2x600000_S2x600000_S2x1200000_d1
        (idx_main_v103 (idx_main_v104 i)) rfl rfl
        (ValueIdx.ix2 (⟨1, by decide⟩ : Fin 2) (⟨(i 0).val - 600000, by omega⟩ : Fin 600000))
        (fun b hb => by
          match b with
          | ⟨0, _⟩ => rfl
          | ⟨1, _⟩ => exact absurd rfl hb)
        (by show (i 0).val - 600000 + 600000 = (i 0).val % 1200000; omega)]
    rw [val_main_v3_apply, val_main_v2_apply]
    refine congrArg x2 (funext fun a => Fin.ext ?_)
    match a with
    | ⟨0, _⟩ => rfl
    | ⟨1, _⟩ => show ((i 0).val - 600000) % 600000 = (i 0).val - 600000; omega

end Cert.KernelIdeal.Hand

end
-- ==== Proof.DenseRows0.lean ====
/- The first dense product of the program, region by rows. The region multiplies a left operand of 100000 rows and 128
   columns by a 128 × 128 weight matrix, ten row blocks of 10000 rows one after the other. Block `t` of the result holds
   rows `10000·t … 10000·t + 9999`; its entry `(p, q)` is `∑_{k<128} xblock[p, k] · w[k, q]` at the extended reals, where
   the casts to bf16 are the identity and the accumulator is the zero splat. The left operand's block at point `t` is
   the same rows of the left operand and the weight block is the whole weight matrix at every point, so that entry is
   entry `(10000·t + p, q)` of the whole product; the ten row blocks tile the 100000 rows. Hence the result array ends
   holding the whole product (`rowsProduct0`). -/
import proofs.«109692_j81381040325515_2_alg».proof.Proof.Gen.KernelIdeal.Frame
import proofs.«109692_j81381040325515_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The all-zero offset vector of a whole-buffer access, however it is spelt. -/
theorem hz0 : (![0, 0] : Fin 2 → Nat) = fun _ => 0 := funext fun a => by fin_cases a <;> rfl

/-! ## The body's product at an index -/

/-- Row `p` of a row block at column `k`: the left factor of entry `(p, q)`'s `k`-th term. -/
abbrev lrow0 (j : S10000x128.Idx) (k : Fin 128) : S10000x128.Idx := fun a => match a with
  | ⟨0, _⟩ => ⟨(j 0).val, (j 0).isLt⟩
  | ⟨1, _⟩ => ⟨k.val, k.isLt⟩
/-- Row `k` of the weights at column `q`: the right factor of entry `(p, q)`'s `k`-th term. -/
abbrev rcol0 (j : S10000x128.Idx) (k : Fin 128) : S128x128.Idx := fun a => match a with
  | ⟨0, _⟩ => ⟨k.val, k.isLt⟩
  | ⟨1, _⟩ => ⟨(j 1).val, (j 1).isLt⟩

theorem klhs0_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem klhs0_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem krhs0_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem krhs0_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(p, q)` of the body's product of a row block `x` with the weights `w`: the sum over the 128 contracted
    coordinates of `x[p, k] · w[k, q]` (the casts to bf16 are the identity on the extended reals and the accumulator is
    the zero splat). -/
theorem pay0_apply (x : Vec Ideal S10000x128 .f32) (w : Vec Ideal S128x128 .f32) (j : S10000x128.Idx) :
    k0_pay1 (F := Ideal) x w j = ∑ k : Fin 128, x (lrow0 j k) * w (rcol0 j k) := by
  unfold k0_pay1
  refine (Ideal.matmul_constant_zero_apply dot_S10000x128_S128x128_S10000x128_1_0_0_1_n_n none _ _ j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = lrow0 j k := funext fun a => Fin.ext (by
    match a with
    | ⟨0, _⟩ => exact klhs0_0 _ _
    | ⟨1, _⟩ => exact (klhs0_1 _ _).trans hk)
  have er : dot_S10000x128_S128x128_S10000x128_1_0_0_1_n_n.rhsIdx j ((ValueIdx.contrEquiv1 dot_S10000x128_S128x128_S10000x128_1_0_0_1_n_n 128 rfl rfl).symm k) = rcol0 j k := funext fun a => Fin.ext (by
    match a with
    | ⟨0, _⟩ => exact (krhs0_0 _ _).trans hk
    | ⟨1, _⟩ => exact krhs0_1 _ _)
  show x (dot_S10000x128_S128x128_S10000x128_1_0_0_1_n_n.lhsIdx j _) * w (dot_S10000x128_S128x128_S10000x128_1_0_0_1_n_n.rhsIdx j _) = _
  rw [el, er]

/-! ## The index maps, decided over the ten points -/

/-- The row-block windows (the left operand's and the result's) sit at block `(t, 0)` at point `t`; the weight
    window sits at block `(0, 0)` at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-! ## The input windows' blocks as parts of their arrays -/

/-- The left operand's block at point `t` is rows `10000·t … 10000·t + 9999` of the left operand: its entry `y` is
    the array's entry `i` whenever `i = (10000·t + y₀, y₁)`. -/
theorem xblk0_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → Elt Ideal .f32) i := by
  obtain ⟨e00, e01, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e00, h0]; omega
  | ⟨1, _⟩ => show win0_0.index t (1 : Fin 2) * 128 + 1 * (y 1).val = (i 1).val; rw [e01, h1]; omega

/-- The weight window's block at every point is the whole weight matrix: its entry `y` is the array's entry `i`
    whenever the two have the same coordinates. -/
theorem wblk0_apply (c : Dev nD) (t : Fin cfg0.N) (y i : S128x128.Idx)
    (h0 : (i 0).val = (y 0).val) (h1 : (i 1).val = (y 1).val) :
    (iblk0 V c 1 t : Vec Ideal S128x128 .f32) y = (V c main_arg3 : S128x128.Idx → Elt Ideal .f32) i := by
  obtain ⟨-, -, e10, e11, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * (y 0).val = (i 0).val; rw [e10, h0]; omega
  | ⟨1, _⟩ => show win0_1.index t (1 : Fin 2) * 128 + 1 * (y 1).val = (i 1).val; rw [e11, h1]; omega

/-! ## What a point writes back -/

/-- Point `t` writes back block `t` of the whole product: entry `(p, q)` of the body's result is
    `∑ₖ xblock[p, k] · w[k, q]`, the block's row `p` is row `10000·t + p` of the left operand, the weight block is the
    whole weight matrix, and entry `(10000·t + p, q)` of the whole product is the same sum. -/
theorem flushed0_eq (c : Dev nD) (t : Fin cfg0.N) :
    (dat0 (F := Ideal) V c).flushed 2 t
      = ((cfg0.win 2).blk t).view.read (Elt Ideal)
          (Cert.ReferenceIdeal.Read.val_main_v4 (F := Ideal) (V c main_arg0) (V c main_arg3)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x128) hz0]
  obtain ⟨-, -, -, -, e20, e21⟩ := idx_facts0 t
  refine funext fun (j : S10000x128.Idx) => ?_
  show k0_pay1 (F := Ideal) (iblk0 V c 0 t) (iblk0 V c 1 t) j
    = Cert.ReferenceIdeal.Read.val_main_v4 (F := Ideal) (V c main_arg0) (V c main_arg3) (((cfg0.win 2).blk t).view.emb j)
  refine (pay0_apply (iblk0 V c 0 t) (iblk0 V c 1 t) j).trans ?_
  refine Eq.trans ?_ (Cert.ReferenceIdeal.Read.val_main_v4_apply _ _ _).symm
  refine Finset.sum_congr rfl fun k _ => ?_
  have hx := xblk0_apply V c t (lrow0 j k) (Cert.ReferenceIdeal.Read.lidx_main_v4 (((cfg0.win 2).blk t).view.emb j) k)
    (by show win0_2.index t (0 : Fin 2) * 10000 + 1 * (j 0).val = 10000 * t.val + (j 0).val; rw [e20]; omega)
    rfl
  have hw := wblk0_apply V c t (rcol0 j k) (Cert.ReferenceIdeal.Read.ridx_main_v4 (((cfg0.win 2).blk t).view.emb j) k)
    rfl
    (by show win0_2.index t (1 : Fin 2) * 128 + 1 * (j 1).val = (j 1).val; rw [e21]; omega)
  rw [hx, hw]

/-! ## The ten row blocks tile the rows -/

/-- An index of the result is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row `r` of the result lies in the block of point `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e20, ht]; omega
  | ⟨1, _⟩ => show win0_2.index t (1 : Fin 2) * 128 ≤ (i 1).val ∧ (i 1).val < win0_2.index t (1 : Fin 2) * 128 + 128; rw [e21]; omega

/-! ## The region's result -/

/-- After the region the result array holds the whole product of the left operand with the weights. -/
theorem rowsProduct0 (c : Dev nD) :
    (dat0 (F := Ideal) V c).arrAt 2 cfg0.N
      = Cert.ReferenceIdeal.Read.val_main_v4 (F := Ideal) (V c main_arg0) (V c main_arg3) :=
  (dat0 (F := Ideal) V c).arrAt_eq_of_cover 2 _ (fun t _ => flushed0_eq V c t) cover0

end Cert.KernelIdeal.Hand

end
-- ==== Proof.HostLayer1.lean ====
/-
  The first graph-convolution layer of the kernel program, read as the reference's own stages.
  When the program starts it slices the positive edge list into its source row and its destination row; the first
  pipelined region then leaves the dense product x·W1 in its result array; the host operations that follow compute
  the degree of every node by a scatter-add of ones over the destinations plus one for the self loop, its inverse
  square root, the per-edge normalisation (the product of the two endpoints' values, gathered), the messages
  (gathered rows of the product scaled per edge) summed into their destination rows, the self-loop term, the bias,
  and finally the rectifier. These are operation for operation the reference's operations on the same operands,
  so each buffer holds the reference's stage of the same name once the dense product is known to be the
  reference's; no arithmetic law is used here.
-/
import proofs.«109692_j81381040325515_2_alg».proof.Proof.Gen.KernelIdeal.Frame
import proofs.«109692_j81381040325515_2_alg».proof.Proof.Gen.ReferenceIdeal.Read
import proofs.«109692_j81381040325515_2_alg».proof.Proof.DenseRows0
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.ReferenceIdeal.Read

variable (m : (ℓ : Loc nD τ sig) → Buf (Elt Ideal) ℓ) (ρ : Dev nD → PrngReg)

/-! ## Before the first region: the two rows of the positive edge list, and the arguments untouched -/

/-- The source row of the positive edge list, as the first region finds it. -/
theorem src_entry (c : Dev nD) :
    W1 m ρ c (Proc.devRef .tc main_v1) = val_main_v1 (F := Ideal) (m ((c : Thread nD τ).loc main_arg1)) := by
  show StableHlo.after hostOps0 (W0 m ρ c) (Proc.devRef .tc main_v1) = _
  after_results
  rfl

/-- The destination row of the positive edge list, as the first region finds it. -/
theorem dst_entry (c : Dev nD) :
    W1 m ρ c (Proc.devRef .tc main_v3) = val_main_v3 (F := Ideal) (m ((c : Thread nD τ).loc main_arg1)) := by
  show StableHlo.after hostOps0 (W0 m ρ c) (Proc.devRef .tc main_v3) = _
  after_results
  rfl

/-- Argument 0 is not written by the four slicing operations. -/
theorem arg0_entry (c : Dev nD) : W1 m ρ c (Proc.devRef .tc main_arg0) = (m ((c : Thread nD τ).loc main_arg0)) := by
  show StableHlo.after hostOps0 (W0 m ρ c) (Proc.devRef .tc main_arg0) = _
  after_results

/-- Argument 1 is not written by the four slicing operations. -/
theorem arg1_entry (c : Dev nD) : W1 m ρ c (Proc.devRef .tc main_arg1) = (m ((c : Thread nD τ).loc main_arg1)) := by
  show StableHlo.after hostOps0 (W0 m ρ c) (Proc.devRef .tc main_arg1) = _
  after_results

/-- Argument 2 is not written by the four slicing operations. -/
theorem arg2_entry (c : Dev nD) : W1 m ρ c (Proc.devRef .tc main_arg2) = (m ((c : Thread nD τ).loc main_arg2)) := by
  show StableHlo.after hostOps0 (W0 m ρ c) (Proc.devRef .tc main_arg2) = _
  after_results

/-- Argument 3 is not written by the four slicing operations. -/
theorem arg3_entry (c : Dev nD) : W1 m ρ c (Proc.devRef .tc main_arg3) = (m ((c : Thread nD τ).loc main_arg3)) := by
  show StableHlo.after hostOps0 (W0 m ρ c) (Proc.devRef .tc main_arg3) = _
  after_results

/-- Argument 4 is not written by the four slicing operations. -/
theorem arg4_entry (c : Dev nD) : W1 m ρ c (Proc.devRef .tc main_arg4) = (m ((c : Thread nD τ).loc main_arg4)) := by
  show StableHlo.after hostOps0 (W0 m ρ c) (Proc.devRef .tc main_arg4) = _
  after_results

/-- Argument 5 is not written by the four slicing operations. -/
theorem arg5_entry (c : Dev nD) : W1 m ρ c (Proc.devRef .tc main_arg5) = (m ((c : Thread nD τ).loc main_arg5)) := by
  show StableHlo.after hostOps0 (W0 m ρ c) (Proc.devRef .tc main_arg5) = _
  after_results

/-- Argument 6 is not written by the four slicing operations. -/
theorem arg6_entry (c : Dev nD) : W1 m ρ c (Proc.devRef .tc main_arg6) = (m ((c : Thread nD τ).loc main_arg6)) := by
  show StableHlo.after hostOps0 (W0 m ρ c) (Proc.devRef .tc main_arg6) = _
  after_results

/-! ## After the first region -/

/-- The first region's result array holds the reference's dense product of the node features and W1. -/
theorem product1 (c : Dev nD) :
    W2 m ρ c (Proc.devRef .tc main_v4) = val_main_v4 (F := Ideal) (m ((c : Thread nD τ).loc main_arg0)) (m ((c : Thread nD τ).loc main_arg3)) := by
  refine (W2_arr m ρ c 2).trans ((rowsProduct0 (V1 m ρ) c).trans ?_)
  show val_main_v4 (F := Ideal) (W1 m ρ c (Proc.devRef .tc main_arg0)) (W1 m ρ c (Proc.devRef .tc main_arg3)) = _
  rw [arg0_entry, arg3_entry]

/-- The region writes only its own result array: the edge rows and the later arguments are as before it. -/
theorem src_after1 (c : Dev nD) : W2 m ρ c (Proc.devRef .tc main_v1) = val_main_v1 (F := Ideal) (m ((c : Thread nD τ).loc main_arg1)) :=
  (W2_of_ne m ρ c main_v1 (by decide)).trans (src_entry m ρ c)
theorem dst_after1 (c : Dev nD) : W2 m ρ c (Proc.devRef .tc main_v3) = val_main_v3 (F := Ideal) (m ((c : Thread nD τ).loc main_arg1)) :=
  (W2_of_ne m ρ c main_v3 (by decide)).trans (dst_entry m ρ c)
theorem arg1_after1 (c : Dev nD) : W2 m ρ c (Proc.devRef .tc main_arg1) = (m ((c : Thread nD τ).loc main_arg1)) :=
  (W2_of_ne m ρ c main_arg1 (by decide)).trans (arg1_entry m ρ c)
theorem arg2_after1 (c : Dev nD) : W2 m ρ c (Proc.devRef .tc main_arg2) = (m ((c : Thread nD τ).loc main_arg2)) :=
  (W2_of_ne m ρ c main_arg2 (by decide)).trans (arg2_entry m ρ c)
theorem arg4_after1 (c : Dev nD) : W2 m ρ c (Proc.devRef .tc main_arg4) = (m ((c : Thread nD τ).loc main_arg4)) :=
  (W2_of_ne m ρ c main_arg4 (by decide)).trans (arg4_entry m ρ c)
theorem arg5_after1 (c : Dev nD) : W2 m ρ c (Proc.devRef .tc main_arg5) = (m ((c : Thread nD τ).loc main_arg5)) :=
  (W2_of_ne m ρ c main_arg5 (by decide)).trans (arg5_entry m ρ c)
theorem arg6_after1 (c : Dev nD) : W2 m ρ c (Proc.devRef .tc main_arg6) = (m ((c : Thread nD τ).loc main_arg6)) :=
  (W2_of_ne m ρ c main_arg6 (by decide)).trans (arg6_entry m ρ c)

/-! ## The first layer's host operations -/

set_option maxHeartbeats 4000000 in
/-- The layer's output before the rectifier: aggregated messages plus the self-loop term plus the bias. -/
theorem layer1_linear (c : Dev nD) :
    W3 m ρ c (Proc.devRef .tc main_v47) = val_main_v47 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v47) = _
  after_results_simp
  rw [product1, src_after1, dst_after1, arg4_after1]
  rfl

/-- The rectified output of the first layer: the second region's left operand. -/
theorem layer1 (c : Dev nD) :
    W4 m ρ c (Proc.devRef .tc main_v48) = val_main_v48 (F := Ideal) (m ((c : Thread nD τ).loc main_arg0)) (m ((c : Thread nD τ).loc main_arg1)) (m ((c : Thread nD τ).loc main_arg3)) (m ((c : Thread nD τ).loc main_arg4)) := by
  have h47 := layer1_linear m ρ c
  show StableHlo.after hostOps1_1 (W3 m ρ c) (Proc.devRef .tc main_v48) = _
  generalize W3 m ρ c = X at h47 ⊢
  after_results
  rw [h47]
  rfl

/-! ## What the layer's host operations leave alone -/

set_option maxHeartbeats 4000000 in
theorem src_after_layer1 (c : Dev nD) : W4 m ρ c (Proc.devRef .tc main_v1) = val_main_v1 (F := Ideal) (m ((c : Thread nD τ).loc main_arg1)) := by
  show StableHlo.after hostOps1_1 (StableHlo.after hostOps1 (W2 m ρ c)) (Proc.devRef .tc main_v1) = _
  after_results_simp
  exact src_after1 m ρ c
set_option maxHeartbeats 4000000 in
theorem dst_after_layer1 (c : Dev nD) : W4 m ρ c (Proc.devRef .tc main_v3) = val_main_v3 (F := Ideal) (m ((c : Thread nD τ).loc main_arg1)) := by
  show StableHlo.after hostOps1_1 (StableHlo.after hostOps1 (W2 m ρ c)) (Proc.devRef .tc main_v3) = _
  after_results_simp
  exact dst_after1 m ρ c
set_option maxHeartbeats 4000000 in
theorem arg1_after_layer1 (c : Dev nD) : W4 m ρ c (Proc.devRef .tc main_arg1) = (m ((c : Thread nD τ).loc main_arg1)) := by
  show StableHlo.after hostOps1_1 (StableHlo.after hostOps1 (W2 m ρ c)) (Proc.devRef .tc main_arg1) = _
  after_results_simp
  exact arg1_after1 m ρ c
set_option maxHeartbeats 4000000 in
theorem arg2_after_layer1 (c : Dev nD) : W4 m ρ c (Proc.devRef .tc main_arg2) = (m ((c : Thread nD τ).loc main_arg2)) := by
  show StableHlo.after hostOps1_1 (StableHlo.after hostOps1 (W2 m ρ c)) (Proc.devRef .tc main_arg2) = _
  after_results_simp
  exact arg2_after1 m ρ c
set_option maxHeartbeats 4000000 in
theorem arg5_after_layer1 (c : Dev nD) : W4 m ρ c (Proc.devRef .tc main_arg5) = (m ((c : Thread nD τ).loc main_arg5)) := by
  show StableHlo.after hostOps1_1 (StableHlo.after hostOps1 (W2 m ρ c)) (Proc.devRef .tc main_arg5) = _
  after_results_simp
  exact arg5_after1 m ρ c
set_option maxHeartbeats 4000000 in
theorem arg6_after_layer1 (c : Dev nD) : W4 m ρ c (Proc.devRef .tc main_arg6) = (m ((c : Thread nD τ).loc main_arg6)) := by
  show StableHlo.after hostOps1_1 (StableHlo.after hostOps1 (W2 m ρ c)) (Proc.devRef .tc main_arg6) = _
  after_results_simp
  exact arg6_after1 m ρ c

end Cert.KernelIdeal.Hand

end
-- ==== Proof.HostLayer2.lean ====
/-
  The second graph-convolution layer and the endpoint features of the scored edges, read as the reference's stages.
  The second pipelined region leaves the dense product of the rectified first-layer output and W2 in its result
  array. The host operations that follow repeat the first layer's aggregation on it (degrees, inverse square roots,
  per-edge normalisation, messages summed into destination rows, self-loop term, bias): the node embeddings. Then the
  endpoints of all 1,200,000 scored edges are formed (positive then negative edges), negative indices are wrapped by
  the number of nodes, and the embeddings of the two endpoints of every edge are gathered: the two operands of the
  decode region. Except for the way the endpoint lists are assembled (the lemma on the edge endpoints), these are
  operation for operation the reference's operations on the same operands.
-/
import proofs.«109692_j81381040325515_2_alg».proof.Proof.Gen.KernelIdeal.Frame
import proofs.«109692_j81381040325515_2_alg».proof.Proof.Gen.ReferenceIdeal.Read
import proofs.«109692_j81381040325515_2_alg».proof.Proof.DenseRows1
import proofs.«109692_j81381040325515_2_alg».proof.Proof.EdgeEndpoints
import proofs.«109692_j81381040325515_2_alg».proof.Proof.HostLayer1
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.ReferenceIdeal.Read

variable (m : (ℓ : Loc nD τ sig) → Buf (Elt Ideal) ℓ) (ρ : Dev nD → PrngReg)

/-! ## After the second region -/

/-- The second region's result array holds the reference's dense product of the first layer's output and W2. -/
theorem product2 (c : Dev nD) :
    W5 m ρ c (Proc.devRef .tc main_v49) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((rowsProduct1 (V4 m ρ) c).trans ?_)
  show Host.dotGeneral (F := Ideal) (φ₁ := .f32) (φ₂ := .f32) Cert.ReferenceIdeal.dot_S100000x128_S128x64_S100000x64_1_0_0_1_n_n none
      (W4 m ρ c (Proc.devRef .tc main_v48)) (W4 m ρ c (Proc.devRef .tc main_arg5)) = _
  rw [layer1, arg5_after_layer1]
  rfl

/-- The region writes only its own result array. -/
theorem src_after2 (c : Dev nD) : W5 m ρ c (Proc.devRef .tc main_v1) = val_main_v1 (F := Ideal) (m ((c : Thread nD τ).loc main_arg1)) :=
  (W5_of_ne m ρ c main_v1 (by decide)).trans (src_after_layer1 m ρ c)
theorem dst_after2 (c : Dev nD) : W5 m ρ c (Proc.devRef .tc main_v3) = val_main_v3 (F := Ideal) (m ((c : Thread nD τ).loc main_arg1)) :=
  (W5_of_ne m ρ c main_v3 (by decide)).trans (dst_after_layer1 m ρ c)
theorem arg1_after2 (c : Dev nD) : W5 m ρ c (Proc.devRef .tc main_arg1) = (m ((c : Thread nD τ).loc main_arg1)) :=
  (W5_of_ne m ρ c main_arg1 (by decide)).trans (arg1_after_layer1 m ρ c)
theorem arg2_after2 (c : Dev nD) : W5 m ρ c (Proc.devRef .tc main_arg2) = (m ((c : Thread nD τ).loc main_arg2)) :=
  (W5_of_ne m ρ c main_arg2 (by decide)).trans (arg2_after_layer1 m ρ c)
theorem arg6_after2 (c : Dev nD) : W5 m ρ c (Proc.devRef .tc main_arg6) = (m ((c : Thread nD τ).loc main_arg6)) :=
  (W5_of_ne m ρ c main_arg6 (by decide)).trans (arg6_after_layer1 m ρ c)

/-! ## The second layer's host operations: the node embeddings -/

set_option maxHeartbeats 8000000 in
/-- The node embeddings: aggregated messages of the second layer plus the self-loop term plus the bias. -/
theorem embeddings (c : Dev nD) :
    W6 m ρ c (Proc.devRef .tc main_v92) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W5 m ρ c) (Proc.devRef .tc main_v92) = _
  after_results_simp
  rw [product2, src_after2, dst_after2, arg6_after2]
  rfl

/-! ## The endpoint lists of the scored edges -/

/-- Two lists laid end to end depend only on the two lists. -/
theorem concat_pair_congr {α : Type} {t s : Shape} (a : Fin t.rank) {u u' v v' : s.Idx → α} (h : Shape.Concatenates [s, s] t a)
    (hu : u = u') (hv : v = v') :
    concatenate t a [⟨s, u⟩, ⟨s, v⟩] h = concatenate t a [⟨s, u'⟩, ⟨s, v'⟩] h := by
  subst hu; subst hv; rfl

/-- Each host operation's result at its own buffer is its function's value and at any other buffer what was there:
    the library's reading of a line of host operations, here also usable on a hypothesis. -/
macro "host_results" loc:(Lean.Parser.Tactic.location)? : tactic =>
  `(tactic| simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne'] $[$loc]?)

set_option maxHeartbeats 8000000 in
/-- The source endpoints of all scored edges, positive edges first. -/
theorem source_endpoints (c : Dev nD) :
    W6 m ρ c (Proc.devRef .tc main_v97) = val_main_v95 (F := Ideal) (m ((c : Thread nD τ).loc main_arg1)) (m ((c : Thread nD τ).loc main_arg2)) := by
  show StableHlo.after hostOps2 (W5 m ρ c) (Proc.devRef .tc main_v97) = _
  after_results_simp
  refine (concat_pair_congr _ _ ?_ ?_).trans (sources_all (m ((c : Thread nD τ).loc main_arg1)) (m ((c : Thread nD τ).loc main_arg2)) Cert.KernelIdeal.Gen.concatenates_S600000_S600000_S1200000_d0)
  · host_results
    rw [arg1_after2]
    rfl
  · host_results
    rw [arg2_after2]
    rfl

set_option maxHeartbeats 8000000 in
/-- The destination endpoints of all scored edges, positive edges first. -/
theorem destination_endpoints (c : Dev nD) :
    W6 m ρ c (Proc.devRef .tc main_v102) = val_main_v104 (F := Ideal) (m ((c : Thread nD τ).loc main_arg1)) (m ((c : Thread nD τ).loc main_arg2)) := by
  show StableHlo.after hostOps2 (W5 m ρ c) (Proc.devRef .tc main_v102) = _
  after_results_simp
  refine (concat_pair_congr _ _ ?_ ?_).trans (destinations_all (m ((c : Thread nD τ).loc main_arg1)) (m ((c : Thread nD τ).loc main_arg2)) Cert.KernelIdeal.Gen.concatenates_S600000_S600000_S1200000_d0)
  · host_results
    rw [arg1_after2]
    rfl
  · host_results
    rw [arg2_after2]
    rfl

/-! ## The endpoint features of the scored edges -/

set_option maxHeartbeats 8000000 in
/-- The embeddings of the source endpoints of all scored edges: the decode region's first operand. -/
theorem source_features (c : Dev nD) :
    W6 m ρ c (Proc.devRef .tc main_v109) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e92 := embeddings m ρ c
  have e97 := source_endpoints m ρ c
  change StableHlo.after hostOps2 (W5 m ρ c) (Proc.devRef .tc main_v92) = _ at e92
  change StableHlo.after hostOps2 (W5 m ρ c) (Proc.devRef .tc main_v97) = _ at e97
  show StableHlo.after hostOps2 (W5 m ρ c) (Proc.devRef .tc main_v109) = _
  host_results at e92 e97 ⊢
  rw [e92, e97]
  rfl

set_option maxHeartbeats 8000000 in
/-- The embeddings of the destination endpoints of all scored edges: the decode region's second operand. -/
theorem destination_features (c : Dev nD) :
    W6 m ρ c (Proc.devRef .tc main_v116) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e92 := embeddings m ρ c
  have e102 := destination_endpoints m ρ c
  change StableHlo.after hostOps2 (W5 m ρ c) (Proc.devRef .tc main_v92) = _ at e92
  change StableHlo.after hostOps2 (W5 m ρ c) (Proc.devRef .tc main_v102) = _ at e102
  show StableHlo.after hostOps2 (W5 m ρ c) (Proc.devRef .tc main_v116) = _
  host_results at e92 e102 ⊢
  rw [e92, e102]
  rfl

end Cert.KernelIdeal.Hand

end
-- ==== Proof.Bridge.lean ====
/-
  The value the kernel program returns, read as the reference's. The decode region leaves in its [1200000, 1]
  result array, at row e, the sum over the 64 features of the product of the two endpoint embeddings of edge e; the
  program returns that array reshaped to [1200000]. The reference multiplies the two gathered endpoint arrays and sums
  over the feature axis from the initial value zero: the same sum. With the endpoint features known to be the
  reference's own stages, the returned buffer is the reference's result stage.
-/
import proofs.«109692_j81381040325515_2_alg».proof.Proof.Gen.KernelIdeal.Frame
import proofs.«109692_j81381040325515_2_alg».proof.Proof.Gen.ReferenceIdeal.Read
import proofs.«109692_j81381040325515_2_alg».proof.Proof.EdgeDecode
import proofs.«109692_j81381040325515_2_alg».proof.Proof.HostLayer2
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.ReferenceIdeal.Read

variable (m : (ℓ : Loc nD τ sig) → Buf (Elt Ideal) ℓ) (ρ : Dev nD → PrngReg)

/-- The returned buffer of the kernel program holds the reference's result stage of the same seven arguments. -/
theorem result_value (c : Dev nD) :
    W8 m ρ c (Proc.devRef .tc main_v118) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W7 m ρ c) (Proc.devRef .tc main_v118) = _
  after_results
  have h7 : W7 m ρ c (Proc.devRef .tc main_v117) = (dat2 (V6 m ρ) c).arrAt 2 cfg2.N := W7_arr m ρ c 2
  rw [h7]
  refine (edgeScores (V6 m ρ) c).trans ?_
  show Host.reduceAdd (F := Ideal) (mulf (W6 m ρ c (Proc.devRef .tc main_v109)) (W6 m ρ c (Proc.devRef .tc main_v116)))
      (constant (F := Ideal) Cert.ReferenceIdeal.S_ .f32 0x00000000#32)
      Cert.ReferenceIdeal.Gen.reducesTo_S1200000x64_S1200000_d1 Cert.ReferenceIdeal.Gen.h_S_ = _
  rw [source_features, destination_features]
  rfl

end Cert.KernelIdeal.Hand

end
-- ==== Proof.lean ====
/-
  The certificate of a two-layer graph convolution with an inner-product edge decoder, kernel program against its
  reference, at the extended reals.

  Both programs compute, for a graph of 100000 nodes with 128 input features and 600000 positive edges: two rounds of
  "dense product, then symmetric-normalised aggregation over the edges with self loops, then bias" (a rectifier between
  the rounds), and then, for 1,200,000 edges (the positive ones followed by 600000 negative ones), the inner product of
  the two endpoints' 64-feature embeddings. The kernel program computes the two dense products and the inner products
  in three pipelined regions tiled over row blocks; everything else it does on the host with the very operations of the
  reference. At the extended reals a product accumulated block of rows by block of rows is the whole product (each
  output entry is the same finite sum of products), the casts to a shorter float format are the identity, and a lane
  sum kept as a column and then flattened is the reference's sum over the feature axis from zero; the endpoint lists
  are one function of the edge number whichever way they are assembled. So the two programs return the same array.
  No law used needs finiteness: the precondition is not opened.

  The three frames: the kernel programs' are the generated ones; the reference's is its run with the result dropped.
  The idealization rewrote no operation, so nothing is owed for it.
-/
import proofs.«109692_j81381040325515_2_alg».proof.Defs
import proofs.«109692_j81381040325515_2_alg».proof.Proof.Gen.Kernel
import proofs.«109692_j81381040325515_2_alg».proof.Proof.Gen.Kernel.Frame
import proofs.«109692_j81381040325515_2_alg».proof.Proof.Gen.KernelIdeal
import proofs.«109692_j81381040325515_2_alg».proof.Proof.Gen.KernelIdeal.Frame
import proofs.«109692_j81381040325515_2_alg».proof.Proof.Gen.ReferenceIdeal
import proofs.«109692_j81381040325515_2_alg».proof.Proof.Gen.Pre_finite_inputs
import proofs.«109692_j81381040325515_2_alg».proof.Proof.Gen.ReferenceIdeal.Run
import proofs.«109692_j81381040325515_2_alg».proof.Proof.Gen.ReferenceIdeal.Read
import proofs.«109692_j81381040325515_2_alg».proof.Proof.KernelRun
import proofs.«109692_j81381040325515_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs terminate, the kernel program's returned buffer at
    the reference's result stage of its arguments, the reference's at the same stage of its own, which are the same. -/
theorem algebraic : Cert.algebraic_KernelIdeal_ReferenceIdeal := by
  intro m ρ m' ρ' _ hagree
  refine ⟨fun c => Cert.KernelIdeal.Gen.W8 m ρ c (Proc.devRef .tc Cert.KernelIdeal.main_v118),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W8 m ρ c (Proc.devRef .tc Cert.KernelIdeal.main_v118)
  rw [Cert.ReferenceIdeal.Read.val_main_v113_eq, Cert.KernelIdeal.Hand.result_value m ρ c,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
